-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2 : Shape := ⟨2, ![64, 2]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x2048x512 .f32) (main_arg1 : FVec F S64x2 .f32) (main_arg2 : FVec F S64x2 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x2048x512 : Shape := ⟨3, ![64, 2048, 512]⟩
abbrev S64x2 : Shape := ⟨2, ![64, 2]⟩
abbrev S_ : Shape := ⟨0, ![]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S64x512 : Shape := ⟨2, ![64, 512]⟩
abbrev S64x1x512 : Shape := ⟨3, ![64, 1, 512]⟩
abbrev S2x2048x512 : Shape := ⟨3, ![2, 2048, 512]⟩
abbrev S2x1x512 : Shape := ⟨3, ![2, 1, 512]⟩

abbrev nBuf : Space → Nat
  | .hbm => 34
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x2, .f32⟩
  | .hbm, ⟨2, _⟩ => ⟨S64x2, .f32⟩
  | .hbm, ⟨3, _⟩ => ⟨S_, .f32⟩
  | .hbm, ⟨4, _⟩ => ⟨S64x2, .f32⟩
  | .hbm, ⟨5, _⟩ => ⟨S64x2, .f32⟩
  | .hbm, ⟨6, _⟩ => ⟨S64x2, .f32⟩
  | .hbm, ⟨7, _⟩ => ⟨S64x2, .i32⟩
  | .hbm, ⟨8, _⟩ => ⟨S_, .i32⟩
  | .hbm, ⟨9, _⟩ => ⟨S64x2, .i32⟩
  | .hbm, ⟨10, _⟩ => ⟨S64x2, .i32⟩
  | .hbm, ⟨11, _⟩ => ⟨S64x2, .f32⟩
  | .hbm, ⟨12, _⟩ => ⟨S64x2, .f32⟩
  | .hbm, ⟨13, _⟩ => ⟨S64x2, .f32⟩
  | .hbm, ⟨14, _⟩ => ⟨S64x2, .i32⟩
  | .hbm, ⟨15, _⟩ => ⟨S512, .i32⟩
  | .hbm, ⟨16, _⟩ => ⟨S1x1x512, .i32⟩
  | .hbm, ⟨17, _⟩ => ⟨S64x2x1, .i32⟩
  | .hbm, ⟨18, _⟩ => ⟨S64x2x512, .i32⟩
  | .hbm, ⟨19, _⟩ => ⟨S64x2x512, .i32⟩
  | .hbm, ⟨20, _⟩ => ⟨S64x2x512, .i1⟩
  | .hbm, ⟨21, _⟩ => ⟨S1x1x512, .i32⟩
  | .hbm, ⟨22, _⟩ => ⟨S64x2, .i32⟩
  | .hbm, ⟨23, _⟩ => ⟨S64x2x1, .i32⟩
  | .hbm, ⟨24, _⟩ => ⟨S64x2x512, .i32⟩
  | .hbm, ⟨25, _⟩ => ⟨S64x2x512, .i32⟩
  | .hbm, ⟨26, _⟩ => ⟨S64x2x512, .i1⟩
  | .hbm, ⟨27, _⟩ => ⟨S64x2x512, .i1⟩
  | .hbm, ⟨28, _⟩ => ⟨S_, .i1⟩
  | .hbm, ⟨29, _⟩ => ⟨S64x512, .i1⟩
  | .hbm, ⟨30, _⟩ => ⟨S64x512, .i1⟩
  | .hbm, ⟨31, _⟩ => ⟨S64x512, .f32⟩
  | .hbm, ⟨32, _⟩ => ⟨S64x1x512, .f32⟩
  | .hbm, ⟨33, _⟩ => ⟨S64x2048x512, .f32⟩
  | .local _ .vmem, ⟨0, _⟩ => ⟨S2x2048x512, .f32⟩
  | .local _ .vmem, ⟨1, _⟩ => ⟨S2x2048x512, .f32⟩
  | .local _ .vmem, ⟨2, _⟩ => ⟨S2x1x512, .f32⟩
  | .local _ .vmem, ⟨3, _⟩ => ⟨S2x1x512, .f32⟩
  | .local _ .vmem, ⟨4, _⟩ => ⟨S2x2048x512, .f32⟩
  | .local _ .vmem, ⟨5, _⟩ => ⟨S2x2048x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x2 : S_.BroadcastsInDim S64x2 (![] : Fin 0 → Fin S64x2.rank)
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  inb_S2x2048x512_S2x2048x512_0_0_0 : ∀ a, (![0, 0, 0] : Fin 3 → Nat) a + S2x2048x512.size a ≤ S2x2048x512.size a
  h_S2x2048x512 : 0 < S2x2048x512.numel
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  broadcasts_S2x1x512_S2x2048x512 : S2x1x512.Broadcasts S2x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S64x2048x512.size a
  hwx0_0 : ∀ i : grid0.Coords, EltTy.bits .f32 = 32 ∨ (Rect.block (s := S64x2048x512) S2x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S64x1x512.size a
  hwx0_1 : ∀ i : grid0.Coords, EltTy.bits .f32 = 32 ∨ (Rect.block (s := S64x1x512) S2x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x512.size a ≤ S64x2048x512.size a
  hwx0_2 : ∀ i : grid0.Coords, EltTy.bits .f32 = 32 ∨ (Rect.block (s := S64x2048x512) S2x2048x512.size (cc0_transform_2 i) (hinb0_2 i)).WholeWords (EltTy.packing .f32)

variable [Facts₀]

abbrev win0_0 : Pipeline.Window sig grid0 :=
  Pipeline.Window.ofSpec (Memref.whole main_arg0) S2x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2 : Shape := ⟨2, ![64, 2]⟩
abbrev S_ : Shape := ⟨0, ![]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S64x512 : Shape := ⟨2, ![64, 512]⟩
abbrev S64x1x512 : Shape := ⟨3, ![64, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2, .f32⟩
  | .hbm, ⟨2, _⟩ => ⟨S64x2, .f32⟩
  | .hbm, ⟨3, _⟩ => ⟨S_, .f32⟩
  | .hbm, ⟨4, _⟩ => ⟨S64x2, .f32⟩
  | .hbm, ⟨5, _⟩ => ⟨S64x2, .f32⟩
  | .hbm, ⟨6, _⟩ => ⟨S64x2, .f32⟩
  | .hbm, ⟨7, _⟩ => ⟨S64x2, .i32⟩
  | .hbm, ⟨8, _⟩ => ⟨S_, .i32⟩
  | .hbm, ⟨9, _⟩ => ⟨S64x2, .i32⟩
  | .hbm, ⟨10, _⟩ => ⟨S64x2, .i32⟩
  | .hbm, ⟨11, _⟩ => ⟨S64x2, .f32⟩
  | .hbm, ⟨12, _⟩ => ⟨S64x2, .f32⟩
  | .hbm, ⟨13, _⟩ => ⟨S64x2, .f32⟩
  | .hbm, ⟨14, _⟩ => ⟨S64x2, .i32⟩
  | .hbm, ⟨15, _⟩ => ⟨S512, .i32⟩
  | .hbm, ⟨16, _⟩ => ⟨S1x1x512, .i32⟩
  | .hbm, ⟨17, _⟩ => ⟨S64x2x1, .i32⟩
  | .hbm, ⟨18, _⟩ => ⟨S64x2x512, .i32⟩
  | .hbm, ⟨19, _⟩ => ⟨S64x2x512, .i32⟩
  | .hbm, ⟨20, _⟩ => ⟨S64x2x512, .i1⟩
  | .hbm, ⟨21, _⟩ => ⟨S1x1x512, .i32⟩
  | .hbm, ⟨22, _⟩ => ⟨S64x2, .i32⟩
  | .hbm, ⟨23, _⟩ => ⟨S64x2x1, .i32⟩
  | .hbm, ⟨24, _⟩ => ⟨S64x2x512, .i32⟩
  | .hbm, ⟨25, _⟩ => ⟨S64x2x512, .i32⟩
  | .hbm, ⟨26, _⟩ => ⟨S64x2x512, .i1⟩
  | .hbm, ⟨27, _⟩ => ⟨S64x2x512, .i1⟩
  | .hbm, ⟨28, _⟩ => ⟨S_, .i1⟩
  | .hbm, ⟨29, _⟩ => ⟨S64x512, .i1⟩
  | .hbm, ⟨30, _⟩ => ⟨S64x512, .i1⟩
  | .hbm, ⟨31, _⟩ => ⟨S64x1x512, .i1⟩
  | .hbm, ⟨32, _⟩ => ⟨S64x1x512, .f32⟩
  | .hbm, ⟨33, _⟩ => ⟨S64x2048x512, .f32⟩
  | .hbm, ⟨34, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  bcast_S_S64x2 : S_.BroadcastsInDim S64x2 (![] : Fin 0 → Fin S64x2.rank)
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)

variable [Facts₀]

class Facts : Prop extends Facts₀ where

variable [Facts]
-- ==== Proof.StripeSpec.lean ====
/-
  Stripe masking, stated once.

  The input is a batch of 64 spectrograms `x[b, t, w]` — 2048 time steps, 512 frequency bins — with two uniform
  draws per sample for the stripe widths and two for the stripe starts.  From the draws a boolean table
  `keep[b, w]` is computed: bin `w` of sample `b` is kept unless it lies inside one of the sample's two stripes.
  The result is

      out[b, t, w] = x[b, t, w] · float(keep[b, w]),

  the keep flag of a bin being shared by every time step of its sample.

  How `keep` comes out of the draws (widths `⌊64·u⌋`, starts `⌊u'·(512 − width)⌋`, two comparisons against the bin
  number, an "or" over the two stripes, a negation) is integer arithmetic that both programs spell operation for
  operation alike; nothing below depends on what it computes, so it is never opened: it enters as the reference's
  stage `val_main_v24`.  Nor does anything depend on the float instance: the two sides are the same product, so the
  statements are made for every `F`.
-/
import proofs.«138124_j56959856279685_2_alg».proof.Proof.Gen.ReferenceIdeal.Read

noncomputable section

namespace Cert.Stripes

open Idealize.ShloMosaic Cert.ReferenceIdeal Cert.ReferenceIdeal.Gen

variable {F : FTy → Type} [FloatOps F]

/-- The (sample, frequency bin) pair under an index of the full array: the time coordinate is forgotten. -/
abbrev binOf (i : S64x2048x512.Idx) : S64x512.Idx := fun a => match a with
  | ⟨0, _⟩ => ⟨(i 0).val, (i 0).isLt⟩
  | ⟨1, _⟩ => ⟨(i 2).val, (i 2).isLt⟩

/-- The keep table `keep[b, w]` as a function of the width draws and the start draws. -/
abbrev keep (u_dist u_bgn : (⟨S64x2, .f32⟩ : BufTy).Contents (Elt F)) : (⟨S64x512, .i1⟩ : BufTy).Contents (Elt F) :=
  Read.val_main_v24 (F := F) u_dist u_bgn

/-- The masked batch: every entry of `x` times the keep flag of its sample's bin, as a float. -/
def masked (x : (⟨S64x2048x512, .f32⟩ : BufTy).Contents (Elt F)) (u_dist u_bgn : (⟨S64x2, .f32⟩ : BufTy).Contents (Elt F)) :
    (⟨S64x2048x512, .f32⟩ : BufTy).Contents (Elt F) :=
  fun i => FloatOps.mulf (x i) (FloatOps.uitofp .f32 (keep u_dist u_bgn (binOf i)))

/-- The reference's last stage is the masked batch.  It broadcasts the boolean table to `[64, 1, 512]`, converts it
    to floats, broadcasts again over the 2048 time steps and multiplies: read at an index `(b, t, w)`, the two
    broadcasts land on `(b, 0, w)` and then on `(b, w)`, which is `binOf`. -/
theorem reference_eq (x : (⟨S64x2048x512, .f32⟩ : BufTy).Contents (Elt F)) (u_dist u_bgn : (⟨S64x2, .f32⟩ : BufTy).Contents (Elt F)) :
    Read.val_main_v28 (F := F) x u_dist u_bgn = masked x u_dist u_bgn := by
  funext i
  have e : Read.idx_main_v25 (Read.idx_main_v27 i) = binOf i :=
    funext fun a => Fin.ext (by match a with | ⟨0, _⟩ => rfl | ⟨1, _⟩ => rfl)
  unfold masked
  rw [Read.val_main_v28_apply, Read.val_main_v27_apply, Read.val_main_v26_apply, Read.val_main_v25_apply, e]

end Cert.Stripes

end
-- ==== Proof.MaskAtEntry.lean ====
/-
  What the kernel's region finds in the mask buffer.

  Before it launches the multiply, the kernel's `@main` computes the keep table from the draws with the same host
  operations as the reference, converts it to floats as a `[64, 512]` table and lays it out as `[64, 1, 512]`
  (one row per sample) for the region's second window.  So the buffer the window stages holds, at `(b, 0, w)`,
  `float(keep[b, w])`.
-/
import proofs.«138124_j56959856279685_2_alg».proof.Proof.Gen.KernelIdeal.Frame
import proofs.«138124_j56959856279685_2_alg».proof.Proof.StripeSpec
import Idealize.ShloMosaic.Lib.StableHlo.Run
import Idealize.ShloMosaic.Lib.Pipeline.Value

noncomputable section

namespace Cert.Stripes

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The (sample, frequency bin) pair under an index of the `[64, 1, 512]` mask buffer. -/
abbrev rowBin (j : S64x1x512.Idx) : Cert.ReferenceIdeal.S64x512.Idx := fun a => match a with
  | ⟨0, _⟩ => ⟨(j 0).val, (j 0).isLt⟩
  | ⟨1, _⟩ => ⟨(j 2).val, (j 2).isLt⟩

set_option maxHeartbeats 2000000 in
/-- The mask buffer at region entry, whole: the keep table of the launch-time draws, as floats, one row per sample. -/
theorem mask_at_entry (c : Dev nD) :
    (V m c main_v26 : (⟨S64x1x512, .f32⟩ : BufTy).Contents (Elt F)) =
      broadcastInDim S64x1x512 ![0, 2] bcast_S64x512_S64x1x512_0_2
        (uitofp .f32 (keep (F := F) (m ((c : Thread nD τ).loc main_arg1)) (m ((c : Thread nD τ).loc main_arg2)))) := by
  dsimp only [V, hostOps0]
  after_results_simp
  rfl

/-- The mask buffer at region entry, entry by entry. -/
theorem mask_at_entry_apply (c : Dev nD) (j : S64x1x512.Idx) :
    (V m c main_v26 : (⟨S64x1x512, .f32⟩ : BufTy).Contents (Elt F)) j =
      FloatOps.uitofp .f32 (keep (F := F) (m ((c : Thread nD τ).loc main_arg1)) (m ((c : Thread nD τ).loc main_arg2)) (rowBin j)) := by
  rw [mask_at_entry]
  exact broadcastInDim_apply _ bcast_S64x512_S64x1x512_0_2 _ j (rowBin j) (fun a => match a with
    | ⟨0, _⟩ => by show (j 0).val = if (64 : Nat) = 1 then 0 else (j 0).val; rw [if_neg (by decide)]
    | ⟨1, _⟩ => by show (j 2).val = if (512 : Nat) = 1 then 0 else (j 2).val; rw [if_neg (by decide)])

end Cert.Stripes

end
-- ==== Proof.MaskedBlocks.lean ====
/-
  From the blocks to the whole array.

  The region walks the batch two samples at a time (32 grid points).  At point `t` it stages samples `2t, 2t+1` of
  `x` whole (`[2, 2048, 512]`), the same two rows of the mask buffer (`[2, 1, 512]`), multiplies each entry of the
  `x` block by the mask entry of its sample and bin — the mask row is repeated down the 2048 time steps — and writes
  the product back as samples `2t, 2t+1` of the result.  The blocks of the three windows sit over the same samples
  and never move along time or frequency, so what point `t` writes back is block `t` of the masked batch; the 32
  blocks tile the result, which therefore ends as the masked batch of the launch-time arguments.
-/
import proofs.«138124_j56959856279685_2_alg».proof.Proof.Gen.KernelIdeal.Value
import proofs.«138124_j56959856279685_2_alg».proof.Proof.MaskAtEntry

noncomputable section

namespace Cert.Stripes

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The body's loads and its store start at the origin of their staging buffers. -/
theorem origin : (![0, 0, 0] : Fin 3 → Nat) = fun _ => 0 := funext fun a => by fin_cases a <;> rfl

/-- The body's product at an index `(s, r, w)` of the block: the `x` entry there times the mask entry of sample `s`,
    bin `w` (row `0` of the mask block, whatever the time step `r`). -/
theorem body_apply (P0 : Vec F S2x2048x512 .f32) (P1 : Vec F S2x1x512 .f32) (j : S2x2048x512.Idx) :
    k0_pay1 P0 P1 j = FloatOps.mulf (P0 j) (P1 (Cert.KernelIdeal.Value.ix2_1 j)) := by
  rw [Cert.KernelIdeal.Value.piece2_0 P0 P1 j]
  show FloatOps.mulf (P0 (Cert.KernelIdeal.Value.ix2_0 (r0_0.idx j))) (P1 (Cert.KernelIdeal.Value.ix2_1 (r0_0.idx j))) = _
  have e0 : Cert.KernelIdeal.Value.ix2_0 (r0_0.idx j) = j := by
    funext a; apply Fin.ext
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  have e1 : Cert.KernelIdeal.Value.ix2_1 (r0_0.idx j) = Cert.KernelIdeal.Value.ix2_1 j := by
    funext a; apply Fin.ext
    match a with
    | ⟨0, _⟩ => show 0 + 1 * (j 0).val = (j 0).val; omega
    | ⟨1, _⟩ => rfl
    | ⟨2, _⟩ => show 0 + 1 * (j 2).val = (j 2).val; omega
  rw [e0, e1]

/-- Where the three windows' blocks sit at each of the 32 points: all over the same pair of samples, none displaced
    along time or frequency. -/
theorem block_index : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every pair of samples is some point's. -/
theorem block_onto : ∀ q : Fin 32, ∃ t : Fin cfg0.N, win0_2.index t = ![q.val, 0, 0] :=
  (by decide +kernel : ∀ q : Fin 32, ∃ t : Fin grid0.N, win0_2.index t = ![q.val, 0, 0])

/-- What point `t` writes back is block `t` of the masked batch of the launch-time arguments. -/
theorem flushed_eq (c : Dev nD) (t : Fin cfg0.N) :
    (dats m 0 c).flushed 2 t = ((cfg0.win 2).blk t).view.read (Elt F)
      (masked (F := F) (m ((c : Thread nD τ).loc main_arg0)) (m ((c : Thread nD τ).loc main_arg1)) (m ((c : Thread nD τ).loc main_arg2))) := by
  rw [Cert.KernelIdeal.Value.flushed2]
  unfold out0_2
  rw [View.canon_unit_zero origin]
  simp only [View.ld_unit_zero (S := S2x2048x512) origin, View.ld_unit_zero (S := S2x1x512) origin]
  obtain ⟨e00, e01, e02, e10, e11, e12, e21, e22⟩ := block_index t
  funext j
  have hj0 : (j 0).val < 2 := (j 0).isLt
  have hj1 : (j 1).val < 2048 := (j 1).isLt
  have hj2 : (j 2).val < 512 := (j 2).isLt
  refine (body_apply (iblk m c 0 t) (iblk m c 1 t) j).trans ?_
  show FloatOps.mulf (V m c main_arg0 (((cfg0.win 0).blk t).view.emb j))
      ((V m c main_v26 : (⟨S64x1x512, .f32⟩ : BufTy).Contents (Elt F)) (((cfg0.win 1).blk t).view.emb (Cert.KernelIdeal.Value.ix2_1 j)))
    = FloatOps.mulf (m ((c : Thread nD τ).loc main_arg0) (((cfg0.win 2).blk t).view.emb j))
      (FloatOps.uitofp .f32 (keep (F := F) (m ((c : Thread nD τ).loc main_arg1)) (m ((c : Thread nD τ).loc main_arg2)) (binOf (((cfg0.win 2).blk t).view.emb j))))
  have h0 : ((cfg0.win 0).blk t).view.emb j = ((cfg0.win 2).blk t).view.emb j := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 512 + 1 * (j 2).val = win0_2.index t (2 : Fin 3) * 512 + 1 * (j 2).val; omega
  have h1 : rowBin (((cfg0.win 1).blk t).view.emb (Cert.KernelIdeal.Value.ix2_1 j)) = binOf (((cfg0.win 2).blk t).view.emb j) := by
    funext a; apply Fin.ext
    match a with
    | ⟨0, _⟩ => show win0_1.index t (0 : Fin 3) * 2 + 1 * (j 0).val = win0_2.index t (0 : Fin 3) * 2 + 1 * (j 0).val; omega
    | ⟨1, _⟩ => show win0_1.index t (2 : Fin 3) * 512 + 1 * (j 2).val = win0_2.index t (2 : Fin 3) * 512 + 1 * (j 2).val; omega
  rw [mask_at_entry_apply, h1, V_main_arg0, h0]

/-- An index of the result is in point `t`'s block iff each coordinate is in the block's range on its axis. -/
theorem mem_blk (t : Fin cfg0.N) (i : S64x2048x512.Idx) :
    i ∈ ((cfg0.win 2).blk t).view.set ↔ ∀ a : Fin 3, win0_2.index t a * S2x2048x512.size a ≤ (i a).val ∧ (i a).val < win0_2.index t a * S2x2048x512.size a + S2x2048x512.size a := by
  show i ∈ ((View.whole main_v27).slice (win0_2.rect t)).set ↔ _
  rw [View.set_slice_whole, Rect.mem_set_unit]
  exact Iff.rfl

/-- The blocks tile the result: sample `b` is in the block of point `b / 2`. -/
theorem covered (i : S64x2048x512.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 512 := (i 2).isLt
  obtain ⟨t, ht⟩ := block_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- The result array after the run is the masked batch of the launch-time arguments. -/
theorem final (c : Dev nD) : (dats m 0 c).arrAt 2 cfg0.N
    = masked (F := F) (m ((c : Thread nD τ).loc main_arg0)) (m ((c : Thread nD τ).loc main_arg1)) (m ((c : Thread nD τ).loc main_arg2)) :=
  (dats m 0 c).arrAt_eq_of_cover 2 _ (fun t _ => flushed_eq m c t) covered

/-- The kernel's run: it terminates with the result at the masked batch and the arguments unchanged. -/
theorem run : θ_run defs (onTc (τ := τ) (main (F := F))) ⟨m, fun _ => 0, ρ⟩ fun r => ∀ c : Dev nD,
      r.2.mem ((c : Thread nD τ).loc main_v27)
        = masked (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Stripes

end
-- ==== Proof.lean ====
/-
  Stripe masking of a batch of spectrograms: the tiled multiply against the whole-array multiply.

  Both programs take `x : f32[64, 2048, 512]` and two `f32[64, 2]` arrays of uniform draws, compute from the draws
  the same boolean table `keep[b, w]` (bin `w` of sample `b` lies in neither of the sample's two stripes) by the same
  host operations, and return `x[b, t, w] · float(keep[b, w])`.  They differ only in how the product is laid out:
  the reference broadcasts the table over the 2048 time steps and multiplies whole arrays; the kernel converts the
  table to floats, keeps it as one row per sample, and multiplies two samples at a time, repeating each sample's row
  down its time steps.  Entry by entry the two are the same product of the same two numbers, so no law of the
  extended reals is used and the finiteness of the inputs is never opened.

    * Proof/StripeSpec.lean   — the masked batch as one function of the arguments; the reference's last stage is it.
    * Proof/MaskAtEntry.lean  — the mask buffer the kernel's region finds: `float(keep[b, w])` at `(b, 0, w)`.
    * Proof/MaskedBlocks.lean — each grid point writes back its block of the masked batch; the blocks tile the result.

  Each program runs to completion without fault and leaves its arguments unchanged (the three frames); the idealized
  kernel is the kernel's own text read over the extended reals, no operation rewritten (`preserves`); and the two
  idealized programs, from memories that agree on the arguments, end with equal results (`algebraic`).
-/
import proofs.«138124_j56959856279685_2_alg».proof.Defs
import proofs.«138124_j56959856279685_2_alg».proof.Proof.Gen.Kernel
import proofs.«138124_j56959856279685_2_alg».proof.Proof.Gen.Kernel.Frame
import proofs.«138124_j56959856279685_2_alg».proof.Proof.Gen.KernelIdeal
import proofs.«138124_j56959856279685_2_alg».proof.Proof.Gen.KernelIdeal.Frame
import proofs.«138124_j56959856279685_2_alg».proof.Proof.Gen.KernelIdeal.Value
import proofs.«138124_j56959856279685_2_alg».proof.Proof.Gen.ReferenceIdeal
import proofs.«138124_j56959856279685_2_alg».proof.Proof.Gen.ReferenceIdeal.Run
import proofs.«138124_j56959856279685_2_alg».proof.Proof.Gen.ReferenceIdeal.Read
import proofs.«138124_j56959856279685_2_alg».proof.Proof.Gen.Pre_finite_inputs
import proofs.«138124_j56959856279685_2_alg».proof.Proof.StripeSpec
import proofs.«138124_j56959856279685_2_alg».proof.Proof.MaskAtEntry
import proofs.«138124_j56959856279685_2_alg».proof.Proof.MaskedBlocks
import Idealize.ShloMosaic.Adequacy
import Idealize.ShloMosaic.Init

noncomputable section

namespace Cert.Proof

open Idealize.ShloMosaic Idealize.SL.Sem

namespace StripeClaims

/-- The kernel as printed runs to completion and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

/-- From memories that agree on `x` and the draws, the kernel's result and the reference's result both end at the
    masked batch of those arguments. -/
theorem algebraic : Cert.algebraic_KernelIdeal_ReferenceIdeal := by
  intro m ρ m' ρ' _ hagree
  refine ⟨_, Cert.Stripes.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Stripes.reference_eq, (hagree c).1, (hagree c).2.1, (hagree c).2.2]

end StripeClaims

theorem claim : Cert.Claim :=
  ⟨Cert.Kernel.Gen.facts, Cert.KernelIdeal.Gen.facts, Cert.ReferenceIdeal.Gen.facts, Cert.Pre_finite_inputs.Gen.facts,
    StripeClaims.frame_kernel, StripeClaims.frame_kernel_ideal, StripeClaims.frame_reference, StripeClaims.preserves,
    StripeClaims.algebraic⟩

end Cert.Proof

end
